-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4 : Shape := ⟨2, ![8192, 4]⟩
abbrev S_ : Shape := ⟨0, ![]⟩

class Facts : Prop where
  bcast_S_S8192x4 : S_.BroadcastsInDim S8192x4 (![] : Fin 0 → Fin S8192x4.rank)
  reducesTo_S8192x4_S_d0_1 : S8192x4.ReducesTo [0, 1] S_
  h_S_ : 0 < S_.numel

variable [Facts]

def fn {F : FTy → Type} [FloatOps F] (main_arg0 : FVec F S8192x4 .f32) (main_arg1 : FVec F S8192x4 .f32) : IVec S_ 1 :=
  let main_v0 : FVec F S8192x4 .f32 := Host.absf main_arg0
  let main_cst : FVec F S_ .f32 := constant S_ .f32 0x7F800000#32
  let main_v1 : FVec F S8192x4 .f32 := broadcastInDim S8192x4 ![] bcast_S_S8192x4 main_cst
  let main_v2 : IVec S8192x4 1 := cmpf .olt main_v0 main_v1
  let main_c : IVec S_ 1 := constantI S_ 1 1#1
  let main_v3 : IVec S_ 1 := (fun x v => Host.reduce IntOp.andi x v reducesTo_S8192x4_S_d0_1 h_S_) main_v2 main_c
  let main_v4 : FVec F S8192x4 .f32 := Host.absf main_arg1
  let main_cst_0 : FVec F S_ .f32 := constant S_ .f32 0x7F800000#32
  let main_v5 : FVec F S8192x4 .f32 := broadcastInDim S8192x4 ![] bcast_S_S8192x4 main_cst_0
  let main_v6 : IVec S8192x4 1 := cmpf .olt main_v4 main_v5
  let main_c_1 : IVec S_ 1 := constantI S_ 1 1#1
  let main_v7 : IVec S_ 1 := (fun x v => Host.reduce IntOp.andi x v reducesTo_S8192x4_S_d0_1 h_S_) main_v6 main_c_1
  let main_v8 : IVec S_ 1 := andi main_v3 main_v7
  main_v8
-- ==== Kernel.lean ====
abbrev S8192x4 : Shape := ⟨2, ![8192, 4]⟩
abbrev S4 : Shape := ⟨1, ![4]⟩
abbrev S1x4 : Shape := ⟨2, ![1, 4]⟩
abbrev S4x8192 : Shape := ⟨2, ![4, 8192]⟩
abbrev S8192x1 : Shape := ⟨2, ![8192, 1]⟩
abbrev S1024x4 : Shape := ⟨2, ![1024, 4]⟩
abbrev S4x2048 : Shape := ⟨2, ![4, 2048]⟩
abbrev S1024x1 : Shape := ⟨2, ![1024, 1]⟩
abbrev S1024x2048 : Shape := ⟨2, ![1024, 2048]⟩
abbrev S1x2048 : Shape := ⟨2, ![1, 2048]⟩
abbrev S1024 : Shape := ⟨1, ![1024]⟩
abbrev S_ : Shape := ⟨0, ![]⟩
abbrev S1 : Shape := ⟨1, ![1]⟩

abbrev nBuf : Space → Nat
  | .hbm => 16
  | .vmem => 7
  | .smem => 0
  | _ => 0

abbrev bufTy : (tb : Table) → Fin (tcTables nBuf tb) → BufTy
  | .hbm, ⟨0, _⟩ => ⟨S8192x4, .f32⟩
  | .hbm, ⟨1, _⟩ => ⟨S8192x4, .f32⟩
  | .hbm, ⟨2, _⟩ => ⟨S4, .f32⟩
  | .hbm, ⟨3, _⟩ => ⟨S1x4, .f32⟩
  | .hbm, ⟨4, _⟩ => ⟨S8192x4, .f32⟩
  | .hbm, ⟨5, _⟩ => ⟨S8192x4, .f32⟩
  | .hbm, ⟨6, _⟩ => ⟨S1x4, .f32⟩
  | .hbm, ⟨7, _⟩ => ⟨S8192x4, .f32⟩
  | .hbm, ⟨8, _⟩ => ⟨S8192x4, .f32⟩
  | .hbm, ⟨9, _⟩ => ⟨S4x8192, .f32⟩
  | .hbm, ⟨10, _⟩ => ⟨S8192x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1, .f32⟩
  | .local _ .vmem, ⟨0, _⟩ => ⟨S1024x4, .f32⟩
  | .local _ .vmem, ⟨1, _⟩ => ⟨S1024x4, .f32⟩
  | .local _ .vmem, ⟨2, _⟩ => ⟨S4x2048, .f32⟩
  | .local _ .vmem, ⟨3, _⟩ => ⟨S4x2048, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S8192x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v43 : BitVec 1 := Scalar.cmpi .eq arg1 c3_i32
  let v44 : BitVec 32 := Scalar.extui v43
  let c0_i32_9 : BitVec 32 := 0#32
  let v45 : BitVec 1 := Scalar.cmpi .ne v44 c0_i32_9
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S4_S1x4_1 : S4.BroadcastsInDim S1x4 (![1] : Fin 1 → Fin S1x4.rank)
  bcast_S1x4_S8192x4_0_1 : S1x4.BroadcastsInDim S8192x4 (![0, 1] : Fin 2 → Fin S8192x4.rank)
  transposes_S8192x4_S4x8192_1_0 : S8192x4.Transposes [1, 0] S4x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x4_S1024x4_0_0 : ∀ a, (![0, 0] : Fin 2 → Nat) a + S1024x4.size a ≤ S1024x4.size a
  h_S1024x4 : 0 < S1024x4.numel
  shapeCasts_S1024x4_S1024x4 : S1024x4.ShapeCasts S1024x4
  inb_S4x2048_S4x2048_0_0 : ∀ a, (![0, 0] : Fin 2 → Nat) a + S4x2048.size a ≤ S4x2048.size a
  h_S4x2048 : 0 < S4x2048.numel
  shapeCasts_S4x2048_S4x2048 : S4x2048.ShapeCasts S4x2048
  slices_S1024x4_o0_0_S1024x1 : S1024x4.Slices ![0, 0] S1024x1
  slices_S4x2048_o0_0_S1x2048 : S4x2048.Slices ![0, 0] S1x2048
  broadcasts_S1024x1_S1024x2048 : S1024x1.Broadcasts S1024x2048
  broadcasts_S1x2048_S1024x2048 : S1x2048.Broadcasts S1024x2048
  slices_S1024x4_o0_1_S1024x1 : S1024x4.Slices ![0, 1] S1024x1
  slices_S4x2048_o1_0_S1x2048 : S4x2048.Slices ![1, 0] S1x2048
  slices_S1024x4_o0_2_S1024x1 : S1024x4.Slices ![0, 2] S1024x1
  slices_S4x2048_o2_0_S1x2048 : S4x2048.Slices ![2, 0] S1x2048
  slices_S1024x4_o0_3_S1024x1 : S1024x4.Slices ![0, 3] S1024x1
  slices_S4x2048_o3_0_S1x2048 : S4x2048.Slices ![3, 0] S1x2048
  reduces_S1024x2048_S1024 : S1024x2048.Reduces [1] S1024
  shapeCasts_S1024_S1024x1 : S1024.ShapeCasts S1024x1
  reducesTo_S8192x1_S_d0_1 : S8192x1.ReducesTo [0, 1] S_
  h_S_ : 0 < S_.numel
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4.size a ≤ S8192x4.size a
  hwx0_0 : ∀ i : grid0.Coords, EltTy.bits .f32 = 32 ∨ (Rect.block (s := S8192x4) S1024x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x2048.size a ≤ S4x8192.size a
  hwx0_1 : ∀ i : grid0.Coords, EltTy.bits .f32 = 32 ∨ (Rect.block (s := S4x8192) S4x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

abbrev win0_0 : Pipeline.Window sig grid0 :=
  Pipeline.Window.ofSpec (Memref.whole main_v2) S1024x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4 : Shape := ⟨2, ![8192, 4]⟩
abbrev S4 : Shape := ⟨1, ![4]⟩
abbrev S1x4 : Shape := ⟨2, ![1, 4]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩
abbrev S1 : Shape := ⟨1, ![1]⟩

abbrev nBuf : Space → Nat
  | .hbm => 32
  | .vmem => 0
  | .smem => 0
  | _ => 0

abbrev bufTy : (tb : Table) → Fin (tcTables nBuf tb) → BufTy
  | .hbm, ⟨0, _⟩ => ⟨S8192x4, .f32⟩
  | .hbm, ⟨1, _⟩ => ⟨S8192x4, .f32⟩
  | .hbm, ⟨2, _⟩ => ⟨S4, .f32⟩
  | .hbm, ⟨3, _⟩ => ⟨S1x4, .f32⟩
  | .hbm, ⟨4, _⟩ => ⟨S8192x4, .f32⟩
  | .hbm, ⟨5, _⟩ => ⟨S8192x4, .f32⟩
  | .hbm, ⟨6, _⟩ => ⟨S1x4, .f32⟩
  | .hbm, ⟨7, _⟩ => ⟨S8192x4, .f32⟩
  | .hbm, ⟨8, _⟩ => ⟨S8192x4, .f32⟩
  | .hbm, ⟨9, _⟩ => ⟨S8192x4, .f32⟩
  | .hbm, ⟨10, _⟩ => ⟨S_, .f32⟩
  | .hbm, ⟨11, _⟩ => ⟨S8192, .f32⟩
  | .hbm, ⟨12, _⟩ => ⟨S8192x4, .f32⟩
  | .hbm, ⟨13, _⟩ => ⟨S_, .f32⟩
  | .hbm, ⟨14, _⟩ => ⟨S8192, .f32⟩
  | .hbm, ⟨15, _⟩ => ⟨S8192x8192, .f32⟩
  | .hbm, ⟨16, _⟩ => ⟨S8192x1, .f32⟩
  | .hbm, ⟨17, _⟩ => ⟨S1x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1, .f32⟩
  | _, _ => ⟨S8192x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S4_S1x4_1 : S4.BroadcastsInDim S1x4 (![1] : Fin 1 → Fin S1x4.rank)
  bcast_S1x4_S8192x4_0_1 : S1x4.BroadcastsInDim S8192x4 (![0, 1] : Fin 2 → Fin S8192x4.rank)
  reducesTo_S8192x4_S8192_d1 : S8192x4.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  shapeCasts_S_S1 : S_.ShapeCasts S1
  dot_S8192x4_S8192x4_S8192x8192_1_1_0_0_n_n_wf : DotDims.WF S8192x4 S8192x4 S8192x8192 [1] [1] [0] [0] [] []

variable [Facts₀]

def dot_S8192x4_S8192x4_S8192x8192_1_1_0_0_n_n : DotDims S8192x4 S8192x4 S8192x8192 where
  lhsContracting := [1]
  rhsContracting := [1]
  lhsNonContracting := [0]
  rhsNonContracting := [0]
  lhsBatch := []
  rhsBatch := []
  wf := dot_S8192x4_S8192x4_S8192x8192_1_1_0_0_n_n_wf

class Facts : Prop extends Facts₀ where

variable [Facts]
-- ==== Proof.Lattice.lean ====
/-
  Least and greatest elements of finite families of extended reals, as the folds the two programs compute them by.

  A reduction by `minimum` from +∞ over a finite index set is the infimum of the family, one by `maximum` from −∞ its
  supremum.  The infimum over 8192 second-cloud points can be taken tile by tile: the points `m < (j + 1) · 2048` are
  the points `m < j · 2048` together with the tile `j · 2048 + l`, `l < 2048`, so the infimum over the first set is
  the minimum of the infimum over the second and the tile's infimum; and all of the 8192 points are below `4 · 2048`.
-/
import Idealize.ShloMosaic.PureOps.Ideal.Laws

noncomputable section

namespace Cert.Knn

open Idealize.ShloMosaic

/-- Folding `minimum` from +∞ over a finite set is the set's infimum. -/
theorem fold_minimumf_eq_inf {ι : Type} (s : Finset ι) (f : ι → EReal) :
    s.fold (FloatOps.minimumf (F := Ideal) (φ := .f32)) (⊤ : EReal) f = s.inf f := by
  classical
  induction s using Finset.induction_on with
  | empty => rfl
  | insert a s ha ih =>
    rw [Finset.fold_insert ha, Finset.inf_insert, ih]
    rfl

/-- Folding `maximum` from −∞ over a finite set is the set's supremum. -/
theorem fold_maximumf_eq_sup {ι : Type} (s : Finset ι) (f : ι → EReal) :
    s.fold (FloatOps.maximumf (F := Ideal) (φ := .f32)) (⊥ : EReal) f = s.sup f := by
  classical
  induction s using Finset.induction_on with
  | empty => rfl
  | insert a s ha ih =>
    rw [Finset.fold_insert ha, Finset.sup_insert, ih]
    rfl

/-- The binary32 pattern of +∞ denotes the top element. -/
theorem ofBits_pinf : Ideal.ofBits .f32 0x7F800000#32 = (⊤ : EReal) := by
  simp [Ideal.ofBits, Ideal.ieee]

/-- The binary32 pattern of −∞ denotes the bottom element. -/
theorem ofBits_ninf : Ideal.ofBits .f32 0xFF800000#32 = (⊥ : EReal) := by
  simp [Ideal.ofBits, Ideal.ieee]

/-- The second-cloud points seen after `j` tiles of 2048. -/
def seen (j : ℕ) : Finset (Fin 8192) := Finset.univ.filter fun m => m.val < j * 2048

/-- One more tile: the infimum over the points seen after `j + 1` tiles is the minimum of the infimum over those seen
    after `j` tiles and the infimum over tile `j`. -/
theorem inf_seen_succ (g : Fin 8192 → EReal) (j : ℕ) (hj : j < 4) :
    (seen (j + 1)).inf g
      = min ((seen j).inf g) (Finset.univ.inf fun l : Fin 2048 => g ⟨j * 2048 + l.val, by have := l.isLt; omega⟩) := by
  apply le_antisymm
  · apply le_min
    · apply Finset.le_inf
      intro m hm
      apply Finset.inf_le
      simp only [seen, Finset.mem_filter, Finset.mem_univ, true_and] at hm ⊢
      omega
    · apply Finset.le_inf
      intro l _
      apply Finset.inf_le
      simp only [seen, Finset.mem_filter, Finset.mem_univ, true_and]
      have := l.isLt
      show j * 2048 + l.val < (j + 1) * 2048
      omega
  · apply Finset.le_inf
    intro m hm
    simp only [seen, Finset.mem_filter, Finset.mem_univ, true_and] at hm
    by_cases h : m.val < j * 2048
    · exact (min_le_left _ _).trans (Finset.inf_le (by simp only [seen, Finset.mem_filter, Finset.mem_univ, true_and]; exact h))
    · refine (min_le_right _ _).trans ?_
      have hl : m.val - j * 2048 < 2048 := by omega
      have e : m = ⟨j * 2048 + (⟨m.val - j * 2048, hl⟩ : Fin 2048).val, by have := m.isLt; show j * 2048 + (m.val - j * 2048) < 8192; omega⟩ :=
        Fin.ext (by show m.val = j * 2048 + (m.val - j * 2048); omega)
      rw [e]
      exact Finset.inf_le (f := fun l : Fin 2048 => g ⟨j * 2048 + l.val, by have := l.isLt; omega⟩) (Finset.mem_univ (⟨m.val - j * 2048, hl⟩ : Fin 2048))

/-- Before the first tile nothing is seen: the infimum is +∞. -/
theorem inf_seen_zero (g : Fin 8192 → EReal) : (seen 0).inf g = ⊤ := by
  have : seen 0 = ∅ := by
    apply Finset.filter_false_of_mem
    intro m _
    omega
  rw [this, Finset.inf_empty]

/-- After four tiles every point is seen. -/
theorem inf_seen_four (g : Fin 8192 → EReal) : (seen 4).inf g = Finset.univ.inf g := by
  have : seen 4 = Finset.univ := by
    apply Finset.filter_true_of_mem
    intro m _
    have := m.isLt
    omega
  rw [this]

end Cert.Knn

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.KerPay.lean ====
/-
  What the kernel body's two stored values are, read entry by entry at the ideal instance.

  The first store (taken only at the first tile of a row block) fills the running-minimum column with +∞.  The second
  store replaces the column's entry for row `r` by the minimum of its old value and the least, over the 2048 lanes
  `l` of the current tile, of the squared distance  Σ_d (x0[r,d] − x1[d,l])²  between row `r` of the first block and
  column `l` of the (transposed) second block: the four coordinate terms are accumulated onto a zero, each term a
  column of the first block and a row of the second broadcast against each other, subtracted and squared; the lane
  minimum is a reduction by `minimum` from +∞ along the lanes.
-/
import proofs.«180128_j63127429316932_2_alg».proof.Proof.Gen.KernelIdeal.Skeleton
import proofs.«180128_j63127429316932_2_alg».proof.Proof.Lattice
import proofs.«180128_j63127429316932_2_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- Column `k` of a [1024, 4] block, broadcast along 2048 lanes, reads at `(r, l)` the block's entry `(r, k)`. -/
theorem col_apply (v : FVec Ideal S1024x4 .f32) (k : Fin 4) (off : Fin 2 → Nat) (hoff : off = ![0, k.val])
    (hs : S1024x4.Slices off S1024x1) (hb : S1024x1.Broadcasts S1024x2048) (r : Fin 1024) (l : Fin 2048) :
    broadcastTo S1024x2048 (extractStridedSlice S1024x1 off v hs) hb (ix2 r l) = v (ix2 r k) := by
  subst hoff
  refine (Cert.Attn.Layout.broadcastTo_a1_ab_apply _ hb r l).trans ?_
  refine extractStridedSlice_apply _ v hs (ix2 r (0 : Fin 1)) (ix2 r k) fun a => ?_
  match a with
  | ⟨0, _⟩ => show r.val = 0 + r.val; omega
  | ⟨1, _⟩ => show k.val = k.val + 0; omega

/-- Row `k` of a [4, 2048] block, broadcast down 1024 rows, reads at `(r, l)` the block's entry `(k, l)`. -/
theorem row_apply (v : FVec Ideal S4x2048 .f32) (k : Fin 4) (off : Fin 2 → Nat) (hoff : off = ![k.val, 0])
    (hs : S4x2048.Slices off S1x2048) (hb : S1x2048.Broadcasts S1024x2048) (r : Fin 1024) (l : Fin 2048) :
    broadcastTo S1024x2048 (extractStridedSlice S1x2048 off v hs) hb (ix2 r l) = v (ix2 k l) := by
  subst hoff
  refine (broadcastTo_1b_ab_apply _ hb r l).trans ?_
  refine extractStridedSlice_apply _ v hs (ix2 (0 : Fin 1) l) (ix2 k l) fun a => ?_
  match a with
  | ⟨0, _⟩ => show k.val = k.val + 0; omega
  | ⟨1, _⟩ => show l.val = 0 + l.val; omega

/-- A reduction by `minimum` from +∞ along the lanes of a [1024, 2048] array reads, at row `r`, the infimum of the
    row's 2048 entries. -/
theorem laneMin_apply (src : FVec Ideal S1024x2048 .f32) (h : S1024x2048.Reduces [1] S1024) (hφ : FKind.Formats .f32)
    (hacc : (0x7F800000#32 : BitVec 32) = FKind.minimumf.neutral .f32 hφ) (r : Fin 1024) :
    multiReduction .minimumf [1] S1024 src 0x7F800000#32 h hφ hacc (ix1 r)
      = Finset.univ.inf fun l : Fin 2048 => src (ix2 r l) := by
  refine (multiReduction_minimumf_eq_fold src _ h hφ hacc (ix1 r)).trans ?_
  refine (h.fold_filter_drop_single FloatOps.minimumf _ src (ix1 r)).trans ?_
  have e : ∀ g : Fin 2048 → EReal, Finset.fold (FloatOps.minimumf (F := Ideal) (φ := .f32))
      (FloatOps.ofBits .f32 0x7F800000#32) g Finset.univ = Finset.univ.inf g := fun g => by
    rw [Ideal.ofBits_def, Cert.Knn.ofBits_pinf]; exact Cert.Knn.fold_minimumf_eq_inf _ g
  refine (e fun l => src (h.lift (ix1 r) l)).trans ?_
  exact congrArg (Finset.univ.inf) (funext fun l => congrArg src (Cert.Attn.Layout.lift_row h r l))

/-- The least squared distance from row `r` of the first block to a column of the second. -/
def tileMin (x0 : FVec Ideal S1024x4 .f32) (x1 : FVec Ideal S4x2048 .f32) (r : Fin 1024) : EReal :=
  Finset.univ.inf fun l : Fin 2048 => ∑ d : Fin 4, (x0 (ix2 r d) - x1 (ix2 d l)) * (x0 (ix2 r d) - x1 (ix2 d l))

/-- The first store's value: +∞ everywhere. -/
theorem pay1_apply (y : S1024x1.Idx) : k0_pay1 (F := Ideal) y = (⊤ : EReal) := by
  unfold k0_pay1
  simp only [shapeCast_self]
  exact Cert.Knn.ofBits_pinf

/-- The second store's value at row `r`: the old entry against the tile's least squared distance. -/
theorem pay2_apply (x0 : Vec Ideal S1024x4 .f32) (x1 : Vec Ideal S4x2048 .f32) (xs : Vec Ideal S1024x1 .f32)
    (r : Fin 1024) (u : Fin 1) :
    k0_pay2 (F := Ideal) x0 x1 xs (ix2 r u) = min (xs (ix2 r u)) (tileMin x0 x1 r) := by
  unfold k0_pay2
  simp only [shapeCast_self]
  refine congrArg (min (xs (ix2 r u))) ?_
  refine (Cert.Attn.Layout.shapeCast_a_a1_apply _ _ r u).trans ?_
  refine (laneMin_apply _ _ _ _ r).trans ?_
  unfold tileMin
  refine congrArg (Finset.univ.inf) (funext fun l => ?_)
  rw [Fin.sum_univ_four]
  simp only [addf_apply, mulf_apply, subf_apply, broadcast_apply]
  rw [col_apply x0 0 ![0, 0] rfl, col_apply x0 1 ![0, 1] rfl, col_apply x0 2 ![0, 2] rfl, col_apply x0 3 ![0, 3] rfl,
    row_apply x1 0 ![0, 0] rfl, row_apply x1 1 ![1, 0] rfl, row_apply x1 2 ![2, 0] rfl, row_apply x1 3 ![3, 0] rfl]
  show Ideal.ofBits .f32 0x00000000#32 + _ + _ + _ + _ = _
  rw [Ideal.ofBits_zero_f32, zero_add]

end Cert.KernelIdeal.Pay

end
-- ==== Proof.KerPieces.lean ====
/-
  What each control case of the kernel body leaves behind, as values.

  The body keeps a running-minimum column in a scratch buffer.  At the first tile of a row block it first fills the
  column with +∞ and then stores the second value computed from that; at a later tile it stores the second value
  computed from the column the previous tile left; at the last tile it also copies the column into the output block.
  Each case's stores cover the whole buffer, so what is left is exactly the last stored value, a pure function of the
  two input blocks and (after the first tile) of the column found.
-/
import proofs.«180128_j63127429316932_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle tile leaves in the scratch column the second value over the column found. -/
theorem sout_B (c : Dev nD) (i : grid0.Coords) (arg2 : Memref sig .tc .vmem S1024x4 .f32) (harg2 : arg2.IsWhole) (arg3 : Memref sig .tc .vmem S4x2048 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x4 .f32) (x1 : Vec F S4x2048 .f32) (xs0 : Vec F S1024x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg2.read_unread, harg3.read_unread, harg5.read_unread, View.ld_unit_zero (S := S1024x4) hz,
    View.ld_unit_zero (S := S4x2048) hz, View.ld_unit_zero (S := S1024x1) hz]

/-- The first tile leaves the second value over the column of +∞ it has just stored. -/
theorem sout_A (c : Dev nD) (i : grid0.Coords) (arg2 : Memref sig .tc .vmem S1024x4 .f32) (harg2 : arg2.IsWhole) (arg3 : Memref sig .tc .vmem S4x2048 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x4 .f32) (x1 : Vec F S4x2048 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg5.read_unread, View.ld_unit_zero (S := S1024x4) hz,
    View.ld_unit_zero (S := S4x2048) hz, View.ld_unit_zero (S := S1024x1) hz]

/-- The last tile leaves the same second value in the scratch column … -/
theorem sout_C (c : Dev nD) (i : grid0.Coords) (arg2 : Memref sig .tc .vmem S1024x4 .f32) (harg2 : arg2.IsWhole) (arg3 : Memref sig .tc .vmem S4x2048 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x4 .f32) (x1 : Vec F S4x2048 .f32) (xs0 : Vec F S1024x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S1024x4) hz,
    View.ld_unit_zero (S := S4x2048) hz, View.ld_unit_zero (S := S1024x1) hz]

/-- … and copies it into the output block. -/
theorem out_C (c : Dev nD) (i : grid0.Coords) (arg2 : Memref sig .tc .vmem S1024x4 .f32) (harg2 : arg2.IsWhole) (arg3 : Memref sig .tc .vmem S4x2048 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x4 .f32) (x1 : Vec F S4x2048 .f32) (xs0 : Vec F S1024x1 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz, View.readCov_unit_zero (S := S1024x1) _ hz]
  simp only [View.readAt_eq_ld, harg2.read_unread, harg3.read_unread, harg5.read_unread, View.ld_unit_zero (S := S1024x4) hz,
    View.ld_unit_zero (S := S4x2048) hz, View.ld_unit_zero (S := S1024x1) hz]

end Cert.KernelIdeal.Pieces

end
-- ==== Proof.Spec.lean ====
/-
  The mathematics both programs compute, stated once over explicit coordinates.

  Two clouds of 8192 points with 4 coordinates each are weighted coordinate by coordinate (1, 1, 1, 1/2).  For a
  point `n` of the first cloud and a point `m` of the second, `sqd` is the squared Euclidean distance of the
  weighted points, `nearest n` the least such distance over the second cloud (an infimum over 8192 values in the
  extended reals), and `hausdorff` the greatest of the 8192 nearest distances (a supremum): the one-sided squared
  Hausdorff distance.  The result array has one entry: that number times the literal one.
-/
import Idealize.ShloMosaic.PureOps.Ideal
import Idealize.ShloMosaic.PureOps.Ideal.Laws
import Idealize.ShloMosaic.Lib.ValueIdx

noncomputable section

namespace Cert.Knn

open Idealize.ShloMosaic Idealize.ShloMosaic.ValueIdx

/-- A cloud as an array: 8192 rows of 4 coordinates, extended reals. -/
abbrev Cloud : Type := (⟨2, ![8192, 4]⟩ : Shape).Idx → EReal

/-- The four weights' bit patterns, in coordinate order: 1, 1, 1 and 1/2 in binary32. -/
abbrev weightBits : Fin 4 → BitVec 32 := fun
  | 0 => 0x3F800000#32 | 1 => 0x3F800000#32 | 2 => 0x3F800000#32 | 3 => 0x3F000000#32
  | _ => 0#32

/-- The weight of coordinate `d`. -/
def weight (d : Fin 4) : EReal := Ideal.ofBits .f32 (weightBits d)

/-- The weighted points of a cloud, by point and coordinate. -/
def pts (x : Cloud) (n : Fin 8192) (d : Fin 4) : EReal := x (ix2 n d) * weight d

/-- The squared distance from point `n` of `a` to point `m` of `b`: the sum over the four coordinates of the
    squared differences. -/
def sqd (a b : Fin 8192 → Fin 4 → EReal) (n m : Fin 8192) : EReal :=
  ∑ d : Fin 4, (a n d - b m d) * (a n d - b m d)

/-- The least squared distance from point `n` of `a` to a point of `b`. -/
def nearest (a b : Fin 8192 → Fin 4 → EReal) (n : Fin 8192) : EReal :=
  Finset.univ.inf fun m : Fin 8192 => sqd a b n m

/-- The greatest of the nearest distances. -/
def hausdorff (a b : Fin 8192 → Fin 4 → EReal) : EReal :=
  Finset.univ.sup fun n : Fin 8192 => nearest a b n

/-- The result array: one entry, the Hausdorff number of the weighted clouds times the literal one. -/
def result (x y : Cloud) : (⟨1, ![1]⟩ : Shape).Idx → EReal :=
  fun _ => hausdorff (pts x) (pts y) * Ideal.ofBits .f32 0x3F800000#32

/-- Every entry of an array is a real number (neither infinity). -/
def IsReal {s : Shape} (x : s.Idx → EReal) : Prop := ∀ i, ∃ r : ℝ, x i = (r : EReal)

/-- A binary pattern whose exponent field is not all ones denotes a real number. -/
theorem ieee_real {w : Nat} (b : BitVec w) (e m : Nat) (h : (b.extractLsb' m e).toNat ≠ 2 ^ e - 1) :
    ∃ r : ℝ, Ideal.ieee e m b = (r : EReal) := by
  unfold Ideal.ieee
  dsimp only
  rw [if_neg h]
  split
  · exact ⟨_, rfl⟩
  · exact ⟨_, rfl⟩

/-- Each weight is a real number. -/
theorem weight_real (d : Fin 4) : ∃ r : ℝ, weight d = (r : EReal) := by
  fin_cases d
  · exact ieee_real (0x3F800000#32) 8 23 (by decide)
  · exact ieee_real (0x3F800000#32) 8 23 (by decide)
  · exact ieee_real (0x3F800000#32) 8 23 (by decide)
  · exact ieee_real (0x3F000000#32) 8 23 (by decide)

/-- The weighted points of a cloud of real numbers are real numbers. -/
theorem pts_real {x : Cloud} (hx : IsReal x) (n : Fin 8192) (d : Fin 4) : ∃ r : ℝ, pts x n d = (r : EReal) := by
  obtain ⟨r, hr⟩ := hx (ix2 n d)
  obtain ⟨w, hw⟩ := weight_real d
  exact ⟨r * w, by rw [pts, hr, hw, EReal.coe_mul]⟩

end Cert.Knn

end
-- ==== Proof.KerBlocks.lean ====
/-
  The two operand arrays as the kernel's region finds them, and the blocks its windows cut from them.

  Before the region the host multiplies each cloud by the weights broadcast along the rows, and transposes the second
  product.  So the first operand array holds, at `(n, d)`, the weighted coordinate `d` of point `n` of the first
  cloud, and the second operand array holds, at `(d, m)`, the weighted coordinate `d` of point `m` of the second.
  Grid point `4 i + j` (row block `i`, tile `j`) reads rows `1024 i …` of the first array and columns `2048 j …`
  of the second.
-/
import proofs.«180128_j63127429316932_2_alg».proof.Proof.Gen.KernelIdeal.Frame
import proofs.«180128_j63127429316932_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen Cert.Knn

variable (m : (ℓ : Loc nD τ sig) → Buf (Elt Ideal) ℓ)

/-- The weights as the host constant lists them are the specification's weights. -/
theorem lit_weight (d : Fin 4) : FloatOps.ofBits (F := Ideal) .f32 (lit0 (S4.rowMajor (ix1 d))) = weight d := by
  have e : S4.rowMajor (ix1 d) = d := Fin.ext (Shape.rowMajor_val_one (ix1 d))
  rw [e]
  unfold weight
  fin_cases d <;> rfl

/-- A cloud times the weights broadcast along its rows reads, at `(n, d)`, the weighted coordinate. -/
theorem weighted_apply (x : Cloud) (n : Fin 8192) (d : Fin 4) :
    mulf (F := Ideal) x (broadcastInDim S8192x4 ![0, 1] bcast_S1x4_S8192x4_0_1 (broadcastInDim S1x4 ![1] bcast_S4_S1x4_1
      (fun i => FloatOps.ofBits (F := Ideal) .f32 (lit0 (S4.rowMajor i))))) (ix2 n d) = pts x n d := by
  show x (ix2 n d) * _ = x (ix2 n d) * weight d
  refine congrArg (x (ix2 n d) * ·) ?_
  refine (broadcastInDim_apply _ _ _ (ix2 n d) (ix2 (0 : Fin 1) d) fun a => ?_).trans ?_
  · match a with
    | ⟨0, _⟩ => rfl
    | ⟨1, _⟩ => rfl
  refine (broadcastInDim_apply _ _ _ (ix2 (0 : Fin 1) d) (ix1 d) fun a => ?_).trans ?_
  · match a with
    | ⟨0, _⟩ => rfl
  exact lit_weight d

/-- The first operand array, as the region finds it: the weighted first cloud. -/
theorem first_apply (c : Dev nD) (n : Fin 8192) (d : Fin 4) :
    (V m c main_v2 : S8192x4.Idx → EReal) (ix2 n d) = pts (m ((c : Thread nD τ).loc main_arg0)) n d := by
  have e : (V m c main_v2 : S8192x4.Idx → EReal) = mulf (F := Ideal) (m ((c : Thread nD τ).loc main_arg0))
      (broadcastInDim S8192x4 ![0, 1] bcast_S1x4_S8192x4_0_1 (broadcastInDim S1x4 ![1] bcast_S4_S1x4_1
        (fun i => FloatOps.ofBits (F := Ideal) .f32 (lit0 (S4.rowMajor i))))) := by
    show StableHlo.after hostOps0 (fun b => m (c, b)) (Proc.devRef .tc main_v2) = _
    after_results
    rfl
  rw [e]
  exact weighted_apply _ n d

/-- The second operand array: the weighted second cloud, transposed. -/
theorem second_apply (c : Dev nD) (d : Fin 4) (k : Fin 8192) :
    (V m c main_v6 : S4x8192.Idx → EReal) (ix2 d k) = pts (m ((c : Thread nD τ).loc main_arg1)) k d := by
  have e : (V m c main_v6 : S4x8192.Idx → EReal) = transpose S4x8192 [1, 0] (mulf (F := Ideal) (m ((c : Thread nD τ).loc main_arg1))
      (broadcastInDim S8192x4 ![0, 1] bcast_S1x4_S8192x4_0_1 (broadcastInDim S1x4 ![1] bcast_S4_S1x4_1
        (fun i => FloatOps.ofBits (F := Ideal) .f32 (lit0 (S4.rowMajor i)))))) transposes_S8192x4_S4x8192_1_0 := by
    show StableHlo.after hostOps0 (fun b => m (c, b)) (Proc.devRef .tc main_v6) = _
    after_results
    rfl
  rw [e]
  refine (transpose_ix2_apply _ _ d k).trans ?_
  exact weighted_apply _ k d

/-- Where the windows' blocks sit, decided once over the 32 grid points: row block `t / 4` of the first array and of
    the result, tile `t % 4` of the second. -/
theorem index_facts : ∀ t : Fin cfg0.N,
    win0_0.index t (0 : Fin 2) = t.val / 4 ∧ win0_0.index t (1 : Fin 2) = 0
    ∧ win0_1.index t (0 : Fin 2) = 0 ∧ win0_1.index t (1 : Fin 2) = t.val % 4
    ∧ win0_2.index t (0 : Fin 2) = t.val / 4 ∧ win0_2.index t (1 : Fin 2) = 0 :=
  (by decide +kernel : ∀ t : Fin grid0.N, _)

/-- Row `r` of row block `i`, as a row of the whole array. -/
def rowOf (i : ℕ) (hi : i < 8) (r : Fin 1024) : Fin 8192 := ⟨i * 1024 + r.val, by have := r.isLt; omega⟩

/-- Lane `l` of tile `j`, as a column of the whole array. -/
def colOf (j : ℕ) (hj : j < 4) (l : Fin 2048) : Fin 8192 := ⟨j * 2048 + l.val, by have := l.isLt; omega⟩

/-- The first window's block at grid point `4 i + j`: the rows of block `i`. -/
theorem iblk0_apply (c : Dev nD) (t : Fin cfg0.N) (i j : ℕ) (hi : i < 8) (hj : j < 4) (ht : t.val = 4 * i + j)
    (r : Fin 1024) (d : Fin 4) :
    (iblk m c 0 t : Vec Ideal S1024x4 .f32) (ix2 r d) = pts (m ((c : Thread nD τ).loc main_arg0)) (rowOf i hi r) d := by
  rw [← first_apply m c (rowOf i hi r) d]
  obtain ⟨h0, h1, -, -, -, -⟩ := index_facts t
  unfold iblk
  rw [View.read_apply]
  show V m c main_v2 _ = V m c main_v2 _
  congr 1
  funext a
  apply Fin.ext
  match a with
  | ⟨0, _⟩ => show win0_0.index t 0 * 1024 + 1 * r.val = i * 1024 + r.val; rw [h0]; omega
  | ⟨1, _⟩ => show win0_0.index t 1 * 4 + 1 * d.val = d.val; rw [h1]; omega

/-- The second window's block at grid point `4 i + j`: the columns of tile `j`. -/
theorem iblk1_apply (c : Dev nD) (t : Fin cfg0.N) (i j : ℕ) (hi : i < 8) (hj : j < 4) (ht : t.val = 4 * i + j)
    (d : Fin 4) (l : Fin 2048) :
    (iblk m c 1 t : Vec Ideal S4x2048 .f32) (ix2 d l) = pts (m ((c : Thread nD τ).loc main_arg1)) (colOf j hj l) d := by
  rw [← second_apply m c d (colOf j hj l)]
  obtain ⟨-, -, h0, h1, -, -⟩ := index_facts t
  unfold iblk
  rw [View.read_apply]
  show V m c main_v6 _ = V m c main_v6 _
  congr 1
  funext a
  apply Fin.ext
  match a with
  | ⟨0, _⟩ => show win0_1.index t 0 * 4 + 1 * d.val = d.val; rw [h0]; omega
  | ⟨1, _⟩ => show win0_1.index t 1 * 2048 + 1 * l.val = j * 2048 + l.val; rw [h1]; omega

end Cert.KernelIdeal.Blocks

end
-- ==== Proof.KerInv.lean ====
/-
  The running minimum the kernel carries across the tiles of a row block.

  At grid point `4 i + j` the body replaces the scratch column's entry for row `r` by the minimum of the entry the
  previous tile left (+∞ at `j = 0`) and the least squared distance from point `1024 i + r` of the first cloud to the
  2048 points of tile `j` of the second.  By induction on the grid point, after point `4 i + j` the entry is the
  infimum of the squared distances to the points `m < 2048 (j + 1)`; after `j = 3` that is the distance to the
  nearest of all 8192 points, and the same column is what the last tile copies into the output block.
-/
import proofs.«180128_j63127429316932_2_alg».proof.Proof.KerPay
import proofs.«180128_j63127429316932_2_alg».proof.Proof.KerPieces
import proofs.«180128_j63127429316932_2_alg».proof.Proof.KerBlocks

set_option maxRecDepth 16384

noncomputable section

open Idealize.ShloMosaic Idealize.ShloMosaic.TcCoe Idealize.SL.Sem Idealize.ShloMosaic.ValueIdx

namespace Cert.KernelIdeal.Inv

open Cert.KernelIdeal Cert.KernelIdeal.Gen Cert.Knn Cert.KernelIdeal.Blocks Cert.KernelIdeal.Pay Cert.KernelIdeal.Pieces

variable (m : (ℓ : Loc nD τ sig) → Buf (Elt Ideal) ℓ)

/-- The weighted first cloud, by point and coordinate. -/
abbrev ptsA (c : Dev nD) : Fin 8192 → Fin 4 → EReal := pts (m ((c : Thread nD τ).loc main_arg0))
/-- The weighted second cloud. -/
abbrev ptsB (c : Dev nD) : Fin 8192 → Fin 4 → EReal := pts (m ((c : Thread nD τ).loc main_arg1))

/-- The tile's least squared distance at grid point `4 i + j`, in terms of the clouds: the infimum over the lanes
    `l` of the squared distance from point `1024 i + r` to point `2048 j + l`. -/
theorem tile_eq (c : Dev nD) (t : Fin cfg0.N) (i j : ℕ) (hi : i < 8) (hj : j < 4) (ht : t.val = 4 * i + j) (r : Fin 1024) :
    tileMin (iblk m c 0 t) (iblk m c 1 t) r
      = Finset.univ.inf fun l : Fin 2048 => sqd (ptsA m c) (ptsB m c) (rowOf i hi r) (colOf j hj l) := by
  unfold tileMin
  refine congrArg (Finset.univ.inf) (funext fun l => ?_)
  unfold sqd
  refine Finset.sum_congr rfl fun d _ => ?_
  rw [iblk0_apply m c t i j hi hj ht r d, iblk1_apply m c t i j hi hj ht d l]

/-- One tile's update: if the column found holds the infimum over the points seen after `j` tiles, the second stored
    value holds the infimum over those seen after `j + 1`. -/
theorem step (c : Dev nD) (t : Fin cfg0.N) (i j : ℕ) (hi : i < 8) (hj : j < 4) (ht : t.val = 4 * i + j)
    (xs : Vec Ideal S1024x1 .f32) (r : Fin 1024) (u : Fin 1)
    (hxs : xs (ix2 r u) = (seen j).inf (sqd (ptsA m c) (ptsB m c) (rowOf i hi r))) :
    k0_pay2 (F := Ideal) (iblk m c 0 t) (iblk m c 1 t) xs (ix2 r u)
      = (seen (j + 1)).inf (sqd (ptsA m c) (ptsB m c) (rowOf i hi r)) := by
  refine (pay2_apply (iblk m c 0 t) (iblk m c 1 t) xs r u).trans ?_
  rw [hxs, tile_eq m c t i j hi hj ht r, inf_seen_succ _ j hj]
  rfl

/-- The scratch column after a first tile. -/
theorem caseA (c : Dev nD) (t : Fin cfg0.N) (h0 : t.val % 4 = 0) (h1 : ¬t.val % 4 = 3) (y : S1024x1.Idx) :
    (outsAt0 m c t.val t.isLt).2 y = k0_pay2 (F := Ideal) (iblk m c 0 t) (iblk m c 1 t) (k0_pay1 (F := Ideal)) y := by
  rw [outsAt0_A m c t h0 h1]
  dsimp only
  exact congrFun (sout_A (F := Ideal) c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (iblk m c 0 t) (iblk m c 1 t)) y

/-- The scratch column after a middle tile. -/
theorem caseB (c : Dev nD) (t : Fin cfg0.N) (h0 : ¬t.val % 4 = 0) (h1 : ¬t.val % 4 = 3) (y : S1024x1.Idx) :
    (outsAt0 m c t.val t.isLt).2 y = k0_pay2 (F := Ideal) (iblk m c 0 t) (iblk m c 1 t)
      (outsAt0 m c (t.val - 1) (Nat.lt_of_le_of_lt (Nat.sub_le _ _) t.isLt)).2 y := by
  rw [outsAt0_B m c t h0 h1]
  dsimp only
  exact congrFun (sout_B (F := Ideal) c (grid0.coords t) (ms0_0 t) (hs0_0 t) (ms0_1 t) (hs0_1 t) (ms0_2 t) (hs0_2 t) scM0_0 (Memref.isWhole_whole _)
    (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2) y

/-- The scratch column after a last tile. -/
theorem caseC (c : Dev nD) (t : Fin cfg0.N) (h0 : ¬t.val % 4 = 0) (h1 : t.val % 4 = 3) (y : S1024x1.Idx) :
    (outsAt0 m c t.val t.isLt).2 y = k0_pay2 (F := Ideal) (iblk m c 0 t) (iblk m c 1 t)
      (outsAt0 m c (t.val - 1) (Nat.lt_of_le_of_lt (Nat.sub_le _ _) t.isLt)).2 y := by
  rw [outsAt0_C m c t h0 h1]
  dsimp only
  exact congrFun (sout_C (F := Ideal) c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2) y

/-- The output block after a last tile: the same column. -/
theorem caseC_out (c : Dev nD) (t : Fin cfg0.N) (h0 : ¬t.val % 4 = 0) (h1 : t.val % 4 = 3) (y : S1024x1.Idx) :
    (outsAt0 m c t.val t.isLt).1 y = (outsAt0 m c t.val t.isLt).2 y := by
  rw [outsAt0_C m c t h0 h1]
  dsimp only
  exact (congrFun (out_C (F := Ideal) c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2) y).trans
    (congrFun (sout_C (F := Ideal) c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2) y).symm

/-- THE INVARIANT: after grid point `n = 4 i + j` the scratch column's entry for row `r` is the infimum of the squared
    distances from point `1024 i + r` to the second cloud's points `m < 2048 (j + 1)`. By induction on the point. -/
theorem scratch_eq (c : Dev nD) : ∀ (n : ℕ) (h : n < cfg0.N) (i j : ℕ) (hi : i < 8) (hj : j < 4), n = 4 * i + j →
    ∀ (r : Fin 1024) (u : Fin 1),
      (outsAt0 m c n h).2 (ix2 r u) = (seen (j + 1)).inf (sqd (ptsA m c) (ptsB m c) (rowOf i hi r))
  | 0, h => fun i j hi hj hn r u => by
    obtain rfl : j = 0 := by omega
    refine (caseA m c ⟨0, h⟩ rfl (by show ¬((0 : ℕ) % 4 = 3); decide) (ix2 r u)).trans ?_
    exact step m c ⟨0, h⟩ i 0 hi hj hn _ r u ((pay1_apply _).trans (inf_seen_zero _).symm)
  | n + 1, h => fun i j hi hj hn r u => by
    by_cases h0 : (n + 1) % 4 = 0
    · obtain rfl : j = 0 := by omega
      refine (caseA m c ⟨n + 1, h⟩ h0 (by show ¬(n + 1) % 4 = 3; omega) (ix2 r u)).trans ?_
      exact step m c ⟨n + 1, h⟩ i 0 hi hj hn _ r u ((pay1_apply _).trans (inf_seen_zero _).symm)
    · obtain ⟨j', rfl⟩ : ∃ j', j = j' + 1 := ⟨j - 1, by omega⟩
      have ih := scratch_eq c n (Nat.lt_of_succ_lt h) i j' hi (by omega) (by omega) r u
      by_cases h1 : (n + 1) % 4 = 3
      · refine (caseC m c ⟨n + 1, h⟩ h0 h1 (ix2 r u)).trans ?_
        exact step m c ⟨n + 1, h⟩ i (j' + 1) hi hj hn _ r u ih
      · refine (caseB m c ⟨n + 1, h⟩ h0 h1 (ix2 r u)).trans ?_
        exact step m c ⟨n + 1, h⟩ i (j' + 1) hi hj hn _ r u ih

/-- So at a last tile the output block's entry for row `r` is the distance from point `1024 i + r` to its nearest
    point of the second cloud. -/
theorem out_eq (c : Dev nD) (t : Fin cfg0.N) (h3 : t.val % 4 = 3) (i : ℕ) (hi : i < 8) (ht : t.val = 4 * i + 3)
    (r : Fin 1024) (u : Fin 1) :
    (outsAt0 m c t.val t.isLt).1 (ix2 r u) = nearest (ptsA m c) (ptsB m c) (rowOf i hi r) := by
  refine (caseC_out m c t (by omega) h3 (ix2 r u)).trans ?_
  refine (scratch_eq m c t.val t.isLt i 3 hi (by omega) ht r u).trans ?_
  exact inf_seen_four _

end Cert.KernelIdeal.Inv

end
-- ==== Proof.KerFinal.lean ====
/-
  The kernel's result array after the run, and the host operations that follow the region.

  Only the last tile of each row block writes its output block back, and the eight row blocks tile the [8192, 1]
  array; so after the run the array holds, at row `n`, the distance from point `n` of the weighted first cloud to the
  nearest point of the weighted second.  The host then takes the maximum from −∞ over the whole array (the supremum of
  the 8192 nearest distances), multiplies by the literal one and reshapes the scalar to one entry.
-/
import proofs.«180128_j63127429316932_2_alg».proof.Proof.KerInv
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.Knn Cert.KernelIdeal.Blocks Cert.KernelIdeal.Inv

variable (m : (ℓ : Loc nD τ sig) → Buf (Elt Ideal) ℓ) (ρ : Dev nD → PrngReg)

/-- The nearest distances as a column: what the result array of the region ends holding. -/
def nearCol (c : Dev nD) : S8192x1.Idx → EReal := fun idx => nearest (ptsA m c) (ptsB m c) ⟨(idx 0).val, idx2_lt0 idx⟩

/-- What a last tile writes back is its block of the column of nearest distances. -/
theorem flushed_eq (c : Dev nD) (t : Fin cfg0.N) (hf : (cfg0.win 2).flush t = true) :
    (dats m 0 c).flushed 2 t = ((cfg0.win 2).blk t).view.read (Elt Ideal) (nearCol m c) := by
  have h3 : t.val % 4 = 3 := (flush0_2 t).mp hf
  have hN : t.val < 32 := lt_of_lt_of_eq t.isLt (show cfg0.N = 32 from N_0)
  obtain ⟨-, -, -, -, e0, e1⟩ := index_facts t
  show (cfg0.win 2).cut (grid0.coords t) ((dats m 0 c).after 2 t) = _
  rw [after0_2]
  funext y
  obtain ⟨r, u, rfl⟩ : ∃ (r : Fin 1024) (u : Fin 1), y = ix2 r u := ⟨y 0, y 1, eq_ix2 y⟩
  show (outsAt0 m c t.val t.isLt).1 (ix2 r u) = nearCol m c (((cfg0.win 2).blk t).view.emb (ix2 r u))
  rw [out_eq m c t h3 (t.val / 4) (by omega) (by omega) r u]
  unfold nearCol
  refine congrArg (nearest (ptsA m c) (ptsB m c)) (Fin.ext ?_)
  show (t.val / 4) * 1024 + r.val = win0_2.index t 0 * 1024 + 1 * r.val
  rw [e0]; omega

/-- The eight last tiles' blocks cover the array. -/
theorem cover (i : S8192x1.Idx) : ∃ t : Fin cfg0.N, (cfg0.win 2).flush t = true ∧ i ∈ ((cfg0.win 2).blk t).view.set := by
  have hi0 : (i 0).val < 8192 := idx2_lt0 i
  have hi1 : (i 1).val < 1 := idx2_lt1 i
  have hN : cfg0.N = 32 := N_0
  let t : Fin cfg0.N := ⟨4 * ((i 0).val / 1024) + 3, by rw [hN]; omega⟩
  have ht : t.val = 4 * ((i 0).val / 1024) + 3 := rfl
  obtain ⟨-, -, -, -, e0, e1⟩ := index_facts t
  refine ⟨t, (flush0_2 t).mpr (by rw [ht]; omega), ?_⟩
  show i ∈ ((View.whole main_v7).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [e0, ht]; omega
  | ⟨1, _⟩ =>
    show win0_2.index t 1 * 1 ≤ (i 1).val ∧ (i 1).val < win0_2.index t 1 * 1 + 1
    rw [e1]; omega

/-- The region's result array after the run. -/
theorem final (c : Dev nD) : (dats m 0 c).arrAt 2 cfg0.N = nearCol m c :=
  (dats m 0 c).arrAt_eq_of_cover 2 (nearCol m c) (flushed_eq m c) cover

instance : Subsingleton S_.Idx := ⟨fun a b => funext fun d => d.elim0⟩

/-- The host operations after the region, applied to a column `X` whose row `n` holds `g n`: the supremum of `g`
    times the literal one, as the one entry of the result. -/
theorem tail_apply (X : S8192x1.Idx → EReal) (g : Fin 8192 → EReal) (hX : ∀ idx : S8192x1.Idx, X idx = g ⟨(idx 0).val, idx2_lt0 idx⟩)
    (i : S1.Idx) :
    shapeCast S1 (mulf (F := Ideal) (Host.reduce FloatOps.maximumf X (constant (F := Ideal) S_ .f32 0xFF800000#32)
      reducesTo_S8192x1_S_d0_1 h_S_) (constant (F := Ideal) S_ .f32 0x3F800000#32)) shapeCasts_S_S1 i
      = Finset.univ.sup g * Ideal.ofBits .f32 0x3F800000#32 := by
  refine (shapeCast_apply _ shapeCasts_S_S1 i ix0 (by
    have : (S1.rowMajor i).val < 1 := (S1.rowMajor i).isLt
    have : (S_.rowMajor ix0).val < 1 := (S_.rowMajor ix0).isLt
    omega)).trans ?_
  show Host.reduce FloatOps.maximumf X (constant (F := Ideal) S_ .f32 0xFF800000#32) reducesTo_S8192x1_S_d0_1 h_S_ ix0 * _ = _
  refine congrArg (· * Ideal.ofBits .f32 0x3F800000#32) ?_
  rw [Host.reduce_eq_fold, Finset.filter_true_of_mem (fun _ _ => Subsingleton.elim _ _)]
  show Finset.fold (FloatOps.maximumf (F := Ideal) (φ := .f32)) (Ideal.ofBits .f32 0xFF800000#32) X Finset.univ = _
  rw [ofBits_ninf, fold_maximumf_eq_sup]
  apply le_antisymm
  · refine Finset.sup_le fun idx _ => ?_
    rw [hX idx]
    exact Finset.le_sup (f := g) (Finset.mem_univ _)
  · refine Finset.sup_le fun n _ => ?_
    have := Finset.le_sup (f := X) (Finset.mem_univ (ix2 n (0 : Fin 1)))
    rw [hX] at this
    exact this

/-- The kernel program's result buffer after the run. -/
theorem tail_eq (c : Dev nD) :
    Pipeline.afterTail₀ cfgs (dats m) 0 (V0 m) [hostOps1] c main_v10
      = result (m ((c : Thread nD τ).loc main_arg0)) (m ((c : Thread nD τ).loc main_arg1)) := by
  unfold Pipeline.afterTail₀
  show StableHlo.after hostOps1 _ (Proc.devRef .tc main_v10) = _
  after_results
  funext i
  have hA : Pipeline.withArrays (cfgs 0).spec c (V0 m c) (fun w => (dats m 0 c).arrAt w (cfgs 0).N) (Proc.tc.devRef main_v7)
      = nearCol m c :=
    (Pipeline.withArrays_arr spec0 launch0.win.arr_inj c _ _ 2).trans (final m c)
  show shapeCast S1 (mulf (F := Ideal) (Host.reduce FloatOps.maximumf
      (Pipeline.withArrays (cfgs 0).spec c (V0 m c) (fun w => (dats m 0 c).arrAt w (cfgs 0).N) (Proc.tc.devRef main_v7))
      (constant (F := Ideal) S_ .f32 0xFF800000#32) reducesTo_S8192x1_S_d0_1 h_S_) (constant (F := Ideal) S_ .f32 0x3F800000#32)) shapeCasts_S_S1 i = _
  rw [hA]
  exact tail_apply (nearCol m c) (nearest (ptsA m c) (ptsB m c)) (fun _ => rfl) i

/-- THE KERNEL PROGRAM'S RUN, read: every weakly fair execution terminates with the result buffer at the
    specification's result of the two arguments, and the arguments unchanged. -/
theorem run : θ_run defs (onTc (τ := τ) (main (F := Ideal))) ⟨m, fun _ => 0, ρ⟩ fun r => ∀ c : Dev nD,
      r.2.mem ((c.tc : Thread nD τ).loc main_v10) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v10 (Pipeline.mem_restRefs_of main_v10 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Final

end
-- ==== Proof.Finite.lean ====
/-
  From the precondition to real entries.

  The precondition says that the conjunction, over every entry of both inputs, of `|v| < +∞` is true.  A conjunction
  over an array that is true was true of every entry; and an extended real whose absolute value `max v (−v)` lies
  strictly below +∞ is neither infinity, hence a real number.
-/
import proofs.«180128_j63127429316932_2_alg».proof.Pre_finite_inputs
import proofs.«180128_j63127429316932_2_alg».proof.Proof.Spec
import proofs.«180128_j63127429316932_2_alg».proof.Proof.Lattice
import Idealize.ShloMosaic.Lib.ReduceAll
import Idealize.ShloMosaic.Lib.Affine
import Idealize.ShloMosaic.Lib.ValueIdx

noncomputable section

open Idealize.ShloMosaic Idealize.ShloMosaic.ValueIdx

namespace Cert.Knn.Finite

open Cert.Pre_finite_inputs

instance : Subsingleton S_.Idx := ⟨fun a b => funext fun d => d.elim0⟩

/-- An extended real whose absolute value is below +∞ is a real number. -/
theorem real_of_abs_lt (v : EReal) (h : Ideal.cmp .olt (max v (-v)) (Ideal.ofBits .f32 0x7F800000#32) = 1#1) :
    ∃ r : ℝ, v = (r : EReal) := by
  rw [Cert.Knn.ofBits_pinf] at h
  induction v using EReal.rec with
  | bot => exact absurd h (by simp [Ideal.cmp])
  | coe r => exact ⟨r, rfl⟩
  | top => exact absurd h (by simp [Ideal.cmp])

/-- Under the precondition every entry of both inputs is a real number. -/
theorem real_of_pre [Facts] (x y : Cert.Knn.Cloud) (h : fn (F := Ideal) x y = fun _ => 1#1) :
    Cert.Knn.IsReal x ∧ Cert.Knn.IsReal y := by
  have h0 := congrFun h ix0
  dsimp only [fn] at h0
  obtain ⟨hx, hy⟩ := IntOp.andi_eq_one.1 h0
  constructor
  · intro i
    have := Host.reduce_andi_all _ _ _ _ _ hx i
    exact real_of_abs_lt (x i) this
  · intro i
    have := Host.reduce_andi_all _ _ _ _ _ hy i
    exact real_of_abs_lt (y i) this

end Cert.Knn.Finite

end
-- ==== Proof.RefRun.lean ====
/-
  The reference program's run, read back as one term of its two arguments.

  The program is a straight line of 30 array operations.  Both clouds are multiplied entry by entry by the four
  weights spread over the rows (`scaled`); the squared norm of every weighted point is the sum of the squares of
  its four coordinates, started from zero (`sqnorm`); the products of the weighted points of the two clouds are
  the contraction of the coordinate axis of both (`cross`); the table of squared distances is the sum of the
  two norms, one spread along the rows and one along the columns, minus twice the products (`sqdist`); every row
  of the table is reduced by the minimum from plus infinity (`rowMin`), the resulting column by the maximum from
  minus infinity (`colMax`); the number obtained is multiplied by the literal one and stored as an array with
  one entry (`refTerm`).  The run theorem says that every weakly fair execution ends with the result buffer at
  `refTerm` of the two argument buffers' initial contents, and with the arguments unchanged.
-/
import proofs.«180128_j63127429316932_2_alg».proof.Proof.Gen.ReferenceIdeal
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The 30 operations, in program order. -/
abbrev ops : List (HloOp τ sig (Elt F)) :=
  [ nullary main_cst (fun i => FloatOps.ofBits .f32 (lit0 (S4.rowMajor i))),
    unary main_cst main_v0 (broadcastInDim S1x4 ![1] bcast_S4_S1x4_1 : (⟨S4, .f32⟩ : BufTy).Contents (Elt F) → (⟨S1x4, .f32⟩ : BufTy).Contents (Elt F)),
    unary main_v0 main_v1 (broadcastInDim S8192x4 ![0, 1] bcast_S1x4_S8192x4_0_1 : (⟨S1x4, .f32⟩ : BufTy).Contents (Elt F) → (⟨S8192x4, .f32⟩ : BufTy).Contents (Elt F)),
    binary main_arg0 main_v1 main_v2 (mulf : (⟨S8192x4, .f32⟩ : BufTy).Contents (Elt F) → (⟨S8192x4, .f32⟩ : BufTy).Contents (Elt F) → (⟨S8192x4, .f32⟩ : BufTy).Contents (Elt F)),
    unary main_cst main_v3 (broadcastInDim S1x4 ![1] bcast_S4_S1x4_1 : (⟨S4, .f32⟩ : BufTy).Contents (Elt F) → (⟨S1x4, .f32⟩ : BufTy).Contents (Elt F)),
    unary main_v3 main_v4 (broadcastInDim S8192x4 ![0, 1] bcast_S1x4_S8192x4_0_1 : (⟨S1x4, .f32⟩ : BufTy).Contents (Elt F) → (⟨S8192x4, .f32⟩ : BufTy).Contents (Elt F)),
    binary main_arg1 main_v4 main_v5 (mulf : (⟨S8192x4, .f32⟩ : BufTy).Contents (Elt F) → (⟨S8192x4, .f32⟩ : BufTy).Contents (Elt F) → (⟨S8192x4, .f32⟩ : BufTy).Contents (Elt F)),
    binary main_v2 main_v2 main_v6 (mulf : (⟨S8192x4, .f32⟩ : BufTy).Contents (Elt F) → (⟨S8192x4, .f32⟩ : BufTy).Contents (Elt F) → (⟨S8192x4, .f32⟩ : BufTy).Contents (Elt F)),
    nullary main_cst_0 (constant S_ .f32 0x00000000#32),
    binary main_v6 main_cst_0 main_v7 ((fun x v => Host.reduceAdd x v reducesTo_S8192x4_S8192_d1 h_S_) : (⟨S8192x4, .f32⟩ : BufTy).Contents (Elt F) → (⟨S_, .f32⟩ : BufTy).Contents (Elt F) → (⟨S8192, .f32⟩ : BufTy).Contents (Elt F)),
    binary main_v5 main_v5 main_v8 (mulf : (⟨S8192x4, .f32⟩ : BufTy).Contents (Elt F) → (⟨S8192x4, .f32⟩ : BufTy).Contents (Elt F) → (⟨S8192x4, .f32⟩ : BufTy).Contents (Elt F)),
    nullary main_cst_1 (constant S_ .f32 0x00000000#32),
    binary main_v8 main_cst_1 main_v9 ((fun x v => Host.reduceAdd x v reducesTo_S8192x4_S8192_d1 h_S_) : (⟨S8192x4, .f32⟩ : BufTy).Contents (Elt F) → (⟨S_, .f32⟩ : BufTy).Contents (Elt F) → (⟨S8192, .f32⟩ : BufTy).Contents (Elt F)),
    binary main_v2 main_v5 main_v10 ((fun l r => Host.dotGeneral dot_S8192x4_S8192x4_S8192x8192_1_1_0_0_n_n none l r) : (⟨S8192x4, .f32⟩ : BufTy).Contents (Elt F) → (⟨S8192x4, .f32⟩ : BufTy).Contents (Elt F) → (⟨S8192x8192, .f32⟩ : BufTy).Contents (Elt F)),
    unary main_v7 main_v11 (broadcastInDim S8192x1 ![0] bcast_S8192_S8192x1_0 : (⟨S8192, .f32⟩ : BufTy).Contents (Elt F) → (⟨S8192x1, .f32⟩ : BufTy).Contents (Elt F)),
    unary main_v9 main_v12 (broadcastInDim S1x8192 ![1] bcast_S8192_S1x8192_1 : (⟨S8192, .f32⟩ : BufTy).Contents (Elt F) → (⟨S1x8192, .f32⟩ : BufTy).Contents (Elt F)),
    unary main_v11 main_v13 (broadcastInDim S8192x8192 ![0, 1] bcast_S8192x1_S8192x8192_0_1 : (⟨S8192x1, .f32⟩ : BufTy).Contents (Elt F) → (⟨S8192x8192, .f32⟩ : BufTy).Contents (Elt F)),
    unary main_v12 main_v14 (broadcastInDim S8192x8192 ![0, 1] bcast_S1x8192_S8192x8192_0_1 : (⟨S1x8192, .f32⟩ : BufTy).Contents (Elt F) → (⟨S8192x8192, .f32⟩ : BufTy).Contents (Elt F)),
    binary main_v13 main_v14 main_v15 (addf : (⟨S8192x8192, .f32⟩ : BufTy).Contents (Elt F) → (⟨S8192x8192, .f32⟩ : BufTy).Contents (Elt F) → (⟨S8192x8192, .f32⟩ : BufTy).Contents (Elt F)),
    nullary main_cst_2 (constant S_ .f32 0x40000000#32),
    unary main_cst_2 main_v16 (broadcastInDim S8192x8192 ![] bcast_S_S8192x8192 : (⟨S_, .f32⟩ : BufTy).Contents (Elt F) → (⟨S8192x8192, .f32⟩ : BufTy).Contents (Elt F)),
    binary main_v16 main_v10 main_v17 (mulf : (⟨S8192x8192, .f32⟩ : BufTy).Contents (Elt F) → (⟨S8192x8192, .f32⟩ : BufTy).Contents (Elt F) → (⟨S8192x8192, .f32⟩ : BufTy).Contents (Elt F)),
    binary main_v15 main_v17 main_v18 (subf : (⟨S8192x8192, .f32⟩ : BufTy).Contents (Elt F) → (⟨S8192x8192, .f32⟩ : BufTy).Contents (Elt F) → (⟨S8192x8192, .f32⟩ : BufTy).Contents (Elt F)),
    nullary main_cst_3 (constant S_ .f32 0x7F800000#32),
    binary main_v18 main_cst_3 main_v19 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_4 (constant S_ .f32 0xFF800000#32),
    binary main_v19 main_cst_4 main_v20 ((fun x v => Host.reduce FloatOps.maximumf x v reducesTo_S8192_S_d0 h_S_) : (⟨S8192, .f32⟩ : BufTy).Contents (Elt F) → (⟨S_, .f32⟩ : BufTy).Contents (Elt F) → (⟨S_, .f32⟩ : BufTy).Contents (Elt F)),
    nullary main_cst_5 (constant S_ .f32 0x3F800000#32),
    binary main_v20 main_cst_5 main_v21 (mulf : (⟨S_, .f32⟩ : BufTy).Contents (Elt F) → (⟨S_, .f32⟩ : BufTy).Contents (Elt F) → (⟨S_, .f32⟩ : BufTy).Contents (Elt F)),
    reshape main_v21 main_v22 rfl shapeCasts_S_S1 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., binary_bufs_sub .., unary_bufs_sub .., unary_bufs_sub .., binary_bufs_sub .., binary_bufs_sub .., nullary_bufs_sub .., binary_bufs_sub .., binary_bufs_sub .., nullary_bufs_sub .., binary_bufs_sub .., binary_bufs_sub .., unary_bufs_sub .., unary_bufs_sub .., unary_bufs_sub .., unary_bufs_sub .., binary_bufs_sub .., nullary_bufs_sub .., unary_bufs_sub .., binary_bufs_sub .., binary_bufs_sub .., nullary_bufs_sub .., binary_bufs_sub .., nullary_bufs_sub .., binary_bufs_sub .., nullary_bufs_sub .., binary_bufs_sub .., reshape_bufs_sub ..⟩

/-! ## The term, piece by piece -/

/-- The four weights, spread over one row and then over all 8192 rows. -/
def wts : FVec F S8192x4 .f32 :=
  broadcastInDim S8192x4 ![0, 1] bcast_S1x4_S8192x4_0_1
    (broadcastInDim S1x4 ![1] bcast_S4_S1x4_1 (fun i : S4.Idx => (FloatOps.ofBits .f32 (lit0 (S4.rowMajor i)) : F .f32)))

/-- A cloud with every coordinate multiplied by its weight. -/
def scaled (x : FVec F S8192x4 .f32) : FVec F S8192x4 .f32 := mulf x wts

/-- The squared norm of every point: zero plus the sum of the squares of its coordinates. -/
def sqnorm (a : FVec F S8192x4 .f32) : FVec F S8192 .f32 :=
  Host.reduceAdd (mulf a a) (constant S_ .f32 0x00000000#32) reducesTo_S8192x4_S8192_d1 h_S_

/-- The products of the points of `a` with the points of `b`: the coordinate axis of both contracted. -/
def cross (a b : FVec F S8192x4 .f32) : FVec F S8192x8192 .f32 :=
  Host.dotGeneral dot_S8192x4_S8192x4_S8192x8192_1_1_0_0_n_n none a b

/-- The table of squared distances in expanded form: the norms of `a` along the rows plus the norms of `b` along
    the columns, minus twice the products. -/
def sqdist (a b : FVec F S8192x4 .f32) : FVec F S8192x8192 .f32 :=
  subf
    (addf
      (broadcastInDim S8192x8192 ![0, 1] bcast_S8192x1_S8192x8192_0_1 (broadcastInDim S8192x1 ![0] bcast_S8192_S8192x1_0 (sqnorm a)))
      (broadcastInDim S8192x8192 ![0, 1] bcast_S1x8192_S8192x8192_0_1 (broadcastInDim S1x8192 ![1] bcast_S8192_S1x8192_1 (sqnorm b))))
    (mulf (broadcastInDim S8192x8192 ![] bcast_S_S8192x8192 (constant S_ .f32 0x40000000#32)) (cross a b))

/-- Every row of a table reduced by the minimum, from plus infinity. -/
def rowMin (t : FVec F S8192x8192 .f32) : FVec F S8192 .f32 :=
  Host.reduce FloatOps.minimumf t (constant S_ .f32 0x7F800000#32) reducesTo_S8192x8192_S8192_d1 h_S_

/-- A column reduced by the maximum, from minus infinity. -/
def colMax (v : FVec F S8192 .f32) : FVec F S_ .f32 :=
  Host.reduce FloatOps.maximumf v (constant S_ .f32 0xFF800000#32) reducesTo_S8192_S_d0 h_S_

/-- The reference's result as a term of its two arguments. -/
def refTerm (x y : FVec F S8192x4 .f32) : FVec F S1 .f32 :=
  shapeCast S1 (mulf (colMax (rowMin (sqdist (scaled x) (scaled y)))) (constant S_ .f32 0x3F800000#32)) shapeCasts_S_S1

/-- On every device, for any float values, from any memory with zero counters: every weakly fair execution of the
    program terminates with the result buffer at `refTerm` of the arguments' initial contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v22).trans (by after_results_simp; rfl),
      (h c main_arg0).trans (by after_results_simp),
      (h c main_arg1).trans (by after_results_simp)⟩)
    (run_seq scopedRefs_eq scopedSems_eq defs main (fun _ => ops) main_eq (fun _ => ops_sub) m ρ)

/-- The run with the result dropped: the arguments are unchanged. -/
theorem frame_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => (h c).2) (run m ρ)

end Cert.ReferenceIdeal.RefValue

end
-- ==== Proof.RefAlgebra.lean ====
/-
  The algebraic law that joins the expanded and the direct form of a squared distance, and the literal constants
  the expanded form uses.

  For two rows `p`, `q` of four extended reals that are all REAL numbers,

      (0 + Σ_d p_d²) + (0 + Σ_d q_d²) − 2 · Σ_d p_d q_d  =  Σ_d (p_d − q_d)².

  Over the extended reals the identity needs the entries to be real: multiplication does not distribute over a sum
  that contains infinities of both signs, and ∞ − ∞ is not zero.  With real witnesses for all eight entries, both
  sides are the images of real expressions (the inclusion of the reals commutes with sums, products and
  differences), and over the reals the identity is the binomial formula added over the four coordinates.

  The constants: the binary32 patterns 0x40000000, 0x7F800000 and 0xFF800000 denote 2, +∞ and −∞.
-/
import proofs.«180128_j63127429316932_2_alg».proof.Proof.Spec

noncomputable section

namespace Cert.ReferenceIdeal.RefValue

open Idealize.ShloMosaic

/-- The pattern 0x40000000 denotes the real number two. -/
theorem ofBits_two : Ideal.ofBits .f32 0x40000000#32 = ((2 : ℝ) : EReal) := by
  simp [Ideal.ofBits, Ideal.ieee]
  norm_cast
  norm_num

/-- The pattern 0x7F800000 denotes plus infinity. -/
theorem ofBits_posInf : Ideal.ofBits .f32 0x7F800000#32 = (⊤ : EReal) := by
  simp [Ideal.ofBits, Ideal.ieee]

/-- The pattern 0xFF800000 denotes minus infinity. -/
theorem ofBits_negInf : Ideal.ofBits .f32 0xFF800000#32 = (⊥ : EReal) := by
  simp [Ideal.ofBits, Ideal.ieee]

/-- The expanded form of the squared distance of two real rows is the direct form. -/
theorem expand_law (p q : Fin 4 → EReal) (hp : ∀ d, ∃ r : ℝ, p d = (r : EReal)) (hq : ∀ d, ∃ r : ℝ, q d = (r : EReal)) :
    ((0 + ∑ d : Fin 4, p d * p d) + (0 + ∑ d : Fin 4, q d * q d)) - ((2 : ℝ) : EReal) * ∑ k : Fin 4, p k * q k
      = ∑ d : Fin 4, (p d - q d) * (p d - q d) := by
  choose pr hpr using hp
  choose qr hqr using hq
  obtain rfl : p = fun d => ((pr d : ℝ) : EReal) := funext hpr
  obtain rfl : q = fun d => ((qr d : ℝ) : EReal) := funext hqr
  simp only [Fin.sum_univ_four]
  norm_cast
  ring

end Cert.ReferenceIdeal.RefValue

end
-- ==== Proof.RefRead.lean ====
/-
  The reference's term read at an index, one operation at a time, over explicit coordinates.

  Writing (n, d) for the entry of row n and coordinate d of a cloud, n and m for points and d for a coordinate:
    * the spread weights at (n, d) are the weight of coordinate d (two broadcasts read back to the four literals);
    * a weighted cloud at (n, d) is the specification's weighted point n at coordinate d;
    * the squared norms at n are zero plus the sum over the four coordinates of the squares of row n;
    * the products at (n, m) are the sum over the four coordinates of row n of one cloud times row m of the other
      (the contraction index, a one-axis index, is re-indexed by its coordinate);
    * the expanded table at (n, m) is the norm at n plus the norm at m minus the literal two times the product
      (a column spread along the rows, a row spread along the columns, a scalar spread over the table);
    * the minimum along a row from plus infinity is the infimum over the 8192 entries of the row, and the maximum
      down the column from minus infinity the supremum over its 8192 entries (a fold of a commutative associative
      operation over the coordinates of the reduced axis);
    * the final reshape of the scalar to an array with one entry reads the scalar.
-/
import proofs.«180128_j63127429316932_2_alg».proof.Proof.RefRun
import proofs.«180128_j63127429316932_2_alg».proof.Proof.RefAlgebra
import proofs.«180128_j63127429316932_2_alg».proof.Proof.Spec
import proofs.«180128_j63127429316932_2_alg».proof.Proof.LibLayout
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

/-- The literal table and the specification's table of weight patterns agree at every coordinate. -/
theorem lit_eq_weightBits (d : Fin 4) : lit0 (S4.rowMajor (ix1 d)) = Cert.Knn.weightBits d := by
  fin_cases d <;> rfl

/-- The spread weights at (n, d): the weight of coordinate d. -/
theorem wts_apply (n : Fin 8192) (d : Fin 4) : wts (F := Ideal) (ix2 n d) = Cert.Knn.weight d := by
  unfold wts
  refine (broadcastInDim_apply _ _ _ (ix2 n d) (ix2 (0 : Fin 1) d) fun a => ?_).trans ?_
  · match a with
    | ⟨0, _⟩ => rfl
    | ⟨1, _⟩ => rfl
  refine (broadcastInDim_apply _ _ _ (ix2 (0 : Fin 1) d) (ix1 d) fun a => ?_).trans ?_
  · match a with
    | ⟨0, _⟩ => rfl
  exact congrArg (Ideal.ofBits .f32) (lit_eq_weightBits d)

/-- A weighted cloud at (n, d): the specification's weighted point. -/
theorem scaled_apply (x : Cert.Knn.Cloud) (n : Fin 8192) (d : Fin 4) :
    scaled (F := Ideal) x (ix2 n d) = Cert.Knn.pts x n d := by
  show x (ix2 n d) * wts (F := Ideal) (ix2 n d) = x (ix2 n d) * Cert.Knn.weight d
  rw [wts_apply]

/-- The squared norms at n: zero plus the sum of the squares of row n. -/
theorem sqnorm_apply (a : Cert.Knn.Cloud) (n : Fin 8192) :
    sqnorm (F := Ideal) a (ix1 n) = 0 + ∑ d : Fin 4, a (ix2 n d) * a (ix2 n d) := by
  have h : S8192x4.Reduces [1] S8192 := by decide
  unfold sqnorm Host.reduceAdd
  refine (Ideal.hostReduceAdd_single reducesTo_S8192x4_S8192_d1 h _ _ (ix1 n)).trans ?_
  refine congrArg₂ (· + ·) Ideal.ofBits_zero_f32 ?_
  exact Finset.sum_congr rfl fun k _ => congrArg (fun i => a i * a i) (Cert.Attn.Layout.lift_row h n k)

/-- The products at (n, m): the sum over the four coordinates of row n of `a` times row m of `b`. -/
theorem cross_apply (a b : Cert.Knn.Cloud) (n m : Fin 8192) :
    cross (F := Ideal) a b (ix2 n m) = ∑ k : Fin 4, a (ix2 n k) * b (ix2 m k) := by
  unfold cross
  refine (Ideal.dotGeneral_apply dot_S8192x4_S8192x4_S8192x8192_1_1_0_0_n_n none .single a b (ix2 n m)).trans ?_
  refine ((contrEquiv1 dot_S8192x4_S8192x4_S8192x8192_1_1_0_0_n_n 4 rfl rfl).symm.sum_comp _).symm.trans ?_
  refine Finset.sum_congr rfl fun k _ => ?_
  have hk := contrEquiv1_symm_val dot_S8192x4_S8192x4_S8192x8192_1_1_0_0_n_n 4 rfl rfl k
  refine congrArg₂ (· * ·) (congrArg a (funext fun c => Fin.ext ?_)) (congrArg b (funext fun c => Fin.ext ?_))
  · match c with
    | ⟨0, _⟩ => rfl
    | ⟨1, _⟩ => exact (DotDims.lhsIdx_val_of_single _ rfl _ _).trans hk
  · match c with
    | ⟨0, _⟩ => rfl
    | ⟨1, _⟩ => exact (DotDims.rhsIdx_val_of_single _ rfl _ _).trans hk

/-- A column of 8192 entries spread along the rows of the table reads, at (n, m), its entry n. -/
theorem spreadRows_apply {α : Type} (v : S8192.Idx → α) (n m : Fin 8192) :
    broadcastInDim S8192x8192 ![0, 1] bcast_S8192x1_S8192x8192_0_1 (broadcastInDim S8192x1 ![0] bcast_S8192_S8192x1_0 v) (ix2 n m)
      = v (ix1 n) := by
  refine (broadcastInDim_apply _ _ _ (ix2 n m) (ix2 n (0 : Fin 1)) fun c => ?_).trans ?_
  · match c with
    | ⟨0, _⟩ => rfl
    | ⟨1, _⟩ => rfl
  refine broadcastInDim_apply _ _ _ (ix2 n (0 : Fin 1)) (ix1 n) fun c => ?_
  match c with
  | ⟨0, _⟩ => rfl

/-- A row of 8192 entries spread along the columns of the table reads, at (n, m), its entry m. -/
theorem spreadCols_apply {α : Type} (v : S8192.Idx → α) (n m : Fin 8192) :
    broadcastInDim S8192x8192 ![0, 1] bcast_S1x8192_S8192x8192_0_1 (broadcastInDim S1x8192 ![1] bcast_S8192_S1x8192_1 v) (ix2 n m)
      = v (ix1 m) := by
  refine (broadcastInDim_apply _ _ _ (ix2 n m) (ix2 (0 : Fin 1) m) fun c => ?_).trans ?_
  · match c with
    | ⟨0, _⟩ => rfl
    | ⟨1, _⟩ => rfl
  refine broadcastInDim_apply _ _ _ (ix2 (0 : Fin 1) m) (ix1 m) fun c => ?_
  match c with
  | ⟨0, _⟩ => rfl

/-- A scalar spread over the table reads the scalar everywhere. -/
theorem spreadScalar_apply {α : Type} (v : S_.Idx → α) (n m : Fin 8192) :
    broadcastInDim S8192x8192 ![] bcast_S_S8192x8192 v (ix2 n m) = v ix0 :=
  broadcastInDim_apply _ _ _ (ix2 n m) ix0 fun c => c.elim0

/-- The expanded table at (n, m): the norm at n plus the norm at m, minus the literal two times the product. -/
theorem sqdist_apply (a b : Cert.Knn.Cloud) (n m : Fin 8192) :
    sqdist (F := Ideal) a b (ix2 n m)
      = (sqnorm (F := Ideal) a (ix1 n) + sqnorm (F := Ideal) b (ix1 m))
        - Ideal.ofBits .f32 0x40000000#32 * cross (F := Ideal) a b (ix2 n m) := by
  unfold sqdist
  rw [subf_apply, addf_apply, mulf_apply, spreadRows_apply, spreadCols_apply, spreadScalar_apply]
  rfl

/-- A fold of the minimum from plus infinity over a finite set is the infimum over the set. -/
theorem fold_min_eq_inf {ι : Type} (s : Finset ι) (f : ι → EReal) {init : EReal} (hinit : init = ⊤) :
    s.fold (FloatOps.minimumf (F := Ideal) (φ := .f32)) init f = s.inf f := by
  classical
  subst hinit
  induction s using Finset.induction_on with
  | empty => rw [Finset.fold_empty, Finset.inf_empty]
  | insert a s ha ih =>
    rw [Finset.fold_insert ha, Finset.inf_insert, ih]
    exact le_antisymm (le_inf (min_le_left _ _) (min_le_right _ _)) (le_min inf_le_left inf_le_right)

/-- A fold of the maximum from minus infinity over a finite set is the supremum over the set. -/
theorem fold_max_eq_sup {ι : Type} (s : Finset ι) (f : ι → EReal) {init : EReal} (hinit : init = ⊥) :
    s.fold (FloatOps.maximumf (F := Ideal) (φ := .f32)) init f = s.sup f := by
  classical
  subst hinit
  induction s using Finset.induction_on with
  | empty => rw [Finset.fold_empty, Finset.sup_empty]
  | insert a s ha ih =>
    rw [Finset.fold_insert ha, Finset.sup_insert, ih]
    exact le_antisymm (max_le le_sup_left le_sup_right) (sup_le (le_max_left _ _) (le_max_right _ _))

/-- The minimum along row n from plus infinity: the infimum of the row's 8192 entries. -/
theorem rowMin_apply (t : FVec Ideal S8192x8192 .f32) (n : Fin 8192) :
    rowMin (F := Ideal) t (ix1 n) = Finset.univ.inf fun m : Fin 8192 => t (ix2 n m) := by
  have h : S8192x8192.Reduces [1] S8192 := by decide
  unfold rowMin
  refine (Host.reduce_eq_fold_single FloatOps.minimumf t _ reducesTo_S8192x8192_S8192_d1 h h_S_ (ix1 n)).trans ?_
  refine (fold_min_eq_inf _ _ ofBits_posInf).trans ?_
  exact Finset.inf_congr rfl fun k _ => congrArg t (Cert.Attn.Layout.lift_row h n k)

/-- The maximum down the column from minus infinity: the supremum of its 8192 entries.  The result has no axis, so
    every index of the column reduces to its one index. -/
theorem colMax_apply (v : FVec Ideal S8192 .f32) :
    colMax (F := Ideal) v ix0 = Finset.univ.sup fun n : Fin 8192 => v (ix1 n) := by
  unfold colMax
  refine (Host.reduce_eq_fold FloatOps.maximumf v _ reducesTo_S8192_S_d0 h_S_ ix0).trans ?_
  refine (fold_max_eq_sup _ _ ofBits_negInf).trans ?_
  refine le_antisymm (Finset.sup_le fun j _ => ?_) (Finset.sup_le fun n _ => ?_)
  · exact (congrArg v (eq_ix1 j)).le.trans
      (Finset.le_sup (f := fun n : Fin 8192 => v (ix1 n)) (Finset.mem_univ (j 0)))
  · exact Finset.le_sup (f := v) (Finset.mem_filter.2 ⟨Finset.mem_univ _, funext fun b => b.elim0⟩)

/-- A scalar stored as an array with one entry reads, at that entry, the scalar. -/
theorem scalarToArray_apply {α : Type} (z : S_.Idx → α) (i : S1.Idx) : shapeCast S1 z shapeCasts_S_S1 i = z ix0 :=
  (shapeCast_addUnit_apply ![] z shapeCasts_S_S1 i).trans (congrArg z (eq_ix0 _))

/-- The result array at its one index: the maximum of the row minima of the expanded table of the weighted clouds,
    times the literal one. -/
theorem refTerm_apply (x y : Cert.Knn.Cloud) (i : S1.Idx) :
    refTerm (F := Ideal) x y i
      = colMax (F := Ideal) (rowMin (F := Ideal) (sqdist (F := Ideal) (scaled (F := Ideal) x) (scaled (F := Ideal) y))) ix0
        * Ideal.ofBits .f32 0x3F800000#32 := by
  unfold refTerm
  rw [scalarToArray_apply, mulf_apply, constant_apply]

/-- For clouds of real numbers the reference's term is the specification's result: index by index the expanded
    squared distance of the weighted points is the direct one, so the row infima and their supremum agree. -/
theorem refTerm_eq_result (x y : Cert.Knn.Cloud) (hx : Cert.Knn.IsReal (s := S8192x4) x) (hy : Cert.Knn.IsReal (s := S8192x4) y) :
    refTerm (F := Ideal) x y = Cert.Knn.result x y := by
  funext i
  rw [refTerm_apply, colMax_apply]
  show _ = Cert.Knn.hausdorff (Cert.Knn.pts x) (Cert.Knn.pts y) * Ideal.ofBits .f32 0x3F800000#32
  refine congrArg (· * Ideal.ofBits .f32 0x3F800000#32) ?_
  unfold Cert.Knn.hausdorff Cert.Knn.nearest
  refine Finset.sup_congr rfl fun n _ => ?_
  rw [rowMin_apply]
  refine Finset.inf_congr rfl fun m _ => ?_
  rw [sqdist_apply, sqnorm_apply, sqnorm_apply, cross_apply, ofBits_two]
  simp only [scaled_apply]
  exact expand_law (Cert.Knn.pts x n) (Cert.Knn.pts y m) (Cert.Knn.pts_real hx n) (Cert.Knn.pts_real hy m)

end Cert.ReferenceIdeal.RefValue

end
-- ==== Proof.RefValue.lean ====
/-
  The reference program's run, stated against the specification.

  Every weakly fair execution of the program ends with the result buffer at the term of the two argument buffers'
  initial contents that the run reads back.  When both argument buffers hold real numbers only, that term is the
  specification's result array: at its one index, the supremum over the points n of the first cloud of the infimum
  over the points m of the second of the squared distance of the weighted points, times the literal one.  The
  expanded squared distance the program computes (norm plus norm minus twice the product) is the direct one (the sum
  of the squared coordinate differences) exactly because every entry is real.  The arguments are left unchanged.
-/
import proofs.«180128_j63127429316932_2_alg».proof.Proof.RefRead

noncomputable section

namespace Cert.ReferenceIdeal.RefValue

open Cert.ReferenceIdeal Cert.ReferenceIdeal.Gen Idealize.ShloMosaic Idealize.ShloMosaic.TcCoe Idealize.SL.Sem

/-- On every device, from any memory with zero counters whose two argument buffers hold real numbers: every weakly
    fair execution of the program terminates with the result buffer at the specification's result of the two
    arguments' initial contents, and the arguments unchanged. -/
theorem run_result (m : (ℓ : Loc nD τ sig) → Buf (Elt Ideal) ℓ) (ρ : Dev nD → PrngReg)
    (hx : ∀ c : Dev nD, Cert.Knn.IsReal (s := S8192x4) (m ((c.tc : Thread nD τ).loc main_arg0)))
    (hy : ∀ c : Dev nD, Cert.Knn.IsReal (s := S8192x4) (m ((c.tc : Thread nD τ).loc main_arg1))) :
    θ_run (defs (F := Ideal)) (onTc (τ := τ) (main (F := Ideal))) ⟨m, fun _ => 0, ρ⟩ fun r => ∀ c : Dev nD,
      r.2.mem ((c.tc : Thread nD τ).loc main_v22) = Cert.Knn.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans (refTerm_eq_result _ _ (hx c) (hy c)), (h c).2⟩)
    (run m ρ)

end Cert.ReferenceIdeal.RefValue

end
-- ==== Proof.lean ====
/-
  The certificate's five claims, assembled.

  Both programs compute the one-sided squared Hausdorff distance between two weighted clouds of 8192 points: for every
  point of the first cloud the squared distance to the nearest point of the second, then the greatest of these.  The
  kernel takes each squared distance as the sum of the four squared coordinate differences and carries a running
  minimum across four tiles of 2048 points; the reference expands the square, |a|² + |b|² − 2 a·b, and reduces over
  all 8192 points at once.  Over the extended reals the two agree when every entry is a real number — the expansion
  uses distributivity, which fails at infinities — and that is what the precondition provides.  The three frames are
  the programs' runs with the results dropped; the idealization rewrote nothing.
-/
import proofs.«180128_j63127429316932_2_alg».proof.Defs
import proofs.«180128_j63127429316932_2_alg».proof.Proof.Gen.Kernel
import proofs.«180128_j63127429316932_2_alg».proof.Proof.Gen.Kernel.Frame
import proofs.«180128_j63127429316932_2_alg».proof.Proof.Gen.KernelIdeal
import proofs.«180128_j63127429316932_2_alg».proof.Proof.Gen.KernelIdeal.Frame
import proofs.«180128_j63127429316932_2_alg».proof.Proof.Gen.ReferenceIdeal
import proofs.«180128_j63127429316932_2_alg».proof.Proof.Gen.Pre_finite_inputs
import proofs.«180128_j63127429316932_2_alg».proof.Proof.KerFinal
import proofs.«180128_j63127429316932_2_alg».proof.Proof.Finite
import proofs.«180128_j63127429316932_2_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run with the result dropped. -/
theorem frame_referenceIdeal : Cert.frame_ReferenceIdeal := fun m ρ _ => Cert.ReferenceIdeal.RefValue.frame_run m ρ

/-- The idealization rewrote no operation. -/
theorem preserves : Cert.preserves_Kernel_KernelIdeal := trivial

/-- From memories agreeing on real-valued arguments both programs end with the same one entry: the Hausdorff number of
    the weighted clouds times the literal one. -/
theorem algebraic : Cert.algebraic_KernelIdeal_ReferenceIdeal := by
  intro m ρ m' ρ' hpre hagree
  have hreal := fun c => Cert.Knn.Finite.real_of_pre _ _ (hpre c)
  refine ⟨fun c => Cert.Knn.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Final.run m ρ, ?_⟩
  have hx : ∀ c : Dev Cert.ReferenceIdeal.nD, Cert.Knn.IsReal (s := Cert.ReferenceIdeal.S8192x4)
      (m' ((c.tc : Thread Cert.ReferenceIdeal.nD Cert.ReferenceIdeal.τ).loc Cert.ReferenceIdeal.main_arg0)) := fun c => by
    rw [(hagree c).1]; exact (hreal c).1
  have hy : ∀ c : Dev Cert.ReferenceIdeal.nD, Cert.Knn.IsReal (s := Cert.ReferenceIdeal.S8192x4)
      (m' ((c.tc : Thread Cert.ReferenceIdeal.nD Cert.ReferenceIdeal.τ).loc Cert.ReferenceIdeal.main_arg1)) := fun c => by
    rw [(hagree c).2]; exact (hreal c).2
  refine (θ_run Cert.ReferenceIdeal.defs _ _).mono (fun _ h c => ⟨(h c).1.trans ?_, (h c).2⟩)
    (Cert.ReferenceIdeal.RefValue.run_result m' ρ' hx hy)
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
